-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S512x1 : Shape := ⟨2, ![512, 1]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S200000x512 .f32) (main_arg1 : FVec F S512x1 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S200000x512 : Shape := ⟨2, ![200000, 512]⟩
abbrev S512x1 : Shape := ⟨2, ![512, 1]⟩
abbrev S512 : Shape := ⟨1, ![512]⟩
abbrev S1x512 : Shape := ⟨2, ![1, 512]⟩
abbrev S4000x512 : Shape := ⟨2, ![4000, 512]⟩

abbrev nBuf : Space → Nat
  | .hbm => 5
  | .vmem => 5
  | .smem => 0
  | _ => 0

abbrev bufTy : (tb : Table) → Fin (tcTables nBuf tb) → BufTy
  | .hbm, ⟨0, _⟩ => ⟨S200000x512, .f32⟩
  | .hbm, ⟨1, _⟩ => ⟨S512x1, .f32⟩
  | .hbm, ⟨2, _⟩ => ⟨S512, .f32⟩
  | .hbm, ⟨3, _⟩ => ⟨S1x512, .f32⟩
  | .hbm, ⟨4, _⟩ => ⟨S200000x512, .f32⟩
  | .local _ .vmem, ⟨0, _⟩ => ⟨S4000x512, .f32⟩
  | .local _ .vmem, ⟨1, _⟩ => ⟨S4000x512, .f32⟩
  | .local _ .vmem, ⟨2, _⟩ => ⟨S1x512, .f32⟩
  | .local _ .vmem, ⟨3, _⟩ => ⟨S4000x512, .f32⟩
  | .local _ .vmem, ⟨4, _⟩ => ⟨S4000x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x1_S512 : S512x1.ShapeCasts S512
  bcast_S512_S1x512_1 : S512.BroadcastsInDim S1x512 (![1] : Fin 1 → Fin S1x512.rank)
  inb_S4000x512_S4000x512_0_0 : ∀ a, (![0, 0] : Fin 2 → Nat) a + S4000x512.size a ≤ S4000x512.size a
  h_S4000x512 : 0 < S4000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S200000x512.size a
  hwx0_0 : ∀ i : grid0.Coords, EltTy.bits .f32 = 32 ∨ (Rect.block (s := S200000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S200000x512.size a
  hwx0_2 : ∀ i : grid0.Coords, EltTy.bits .f32 = 32 ∨ (Rect.block (s := S200000x512) S4000x512.size (cc0_transform_2 i) (hinb0_2 i)).WholeWords (EltTy.packing .f32)

variable [Facts₀]

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x512 : Shape := ⟨2, ![200000, 512]⟩
abbrev S512x1 : Shape := ⟨2, ![512, 1]⟩
abbrev S512 : Shape := ⟨1, ![512]⟩
abbrev S1x512 : Shape := ⟨2, ![1, 512]⟩

abbrev nBuf : Space → Nat
  | .hbm => 6
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S512x1, .f32⟩
  | .hbm, ⟨2, _⟩ => ⟨S512, .f32⟩
  | .hbm, ⟨3, _⟩ => ⟨S1x512, .f32⟩
  | .hbm, ⟨4, _⟩ => ⟨S200000x512, .f32⟩
  | .hbm, ⟨5, _⟩ => ⟨S200000x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S512x1_S512 : S512x1.ShapeCasts S512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)

variable [Facts₀]

class Facts : Prop extends Facts₀ where

variable [Facts]
-- ==== Proof.ColumnScale.lean ====
/-
  The function both programs compute. The data are a matrix `x` of 200000 rows and 512 columns and a weight column `w`
  of 512 rows and one column; the result is `x` with its column `q` multiplied by the `q`-th weight:

      scaled x w (p, q) = x (p, q) · w (q, 0).

  Nothing but one product per entry is involved, so the definition is stated for any float instance; the claims read it at
  the extended reals, where the product is the exact one. No law of arithmetic is needed to join the two programs: they
  differ only in how the weight column is carried to the entry (p, q) — the kernel lays it out as a row of 512 lanes and
  repeats that row down the 4000 rows of a block, the reference repeats the same row down all 200000 rows — and both
  routes read the same entry `w (q, 0)`.
-/
import Idealize.ShloMosaic.PureOps
import Idealize.ShloMosaic.Lib.ValueIdx

noncomputable section

namespace Cert.ColumnScale

open Idealize.ShloMosaic Idealize.ShloMosaic.ValueIdx

/-- The matrix's index set: 200000 rows, 512 columns. -/
abbrev Mat : Shape := ⟨2, ![200000, 512]⟩
/-- The weight column's index set: 512 rows, one column. -/
abbrev Col : Shape := ⟨2, ![512, 1]⟩

variable {F : FTy → Type} [FloatOps F]

/-- The weight entry that scales the matrix entry `i = (p, q)`: row `q` of the weight column. -/
abbrev weightAt (i : Mat.Idx) : Col.Idx := ix2 (n0 := 512) (n1 := 1) ⟨(i 1).val, (i 1).isLt⟩ 0

/-- The matrix with each column multiplied by its weight. -/
def scaled (x : Vec F Mat .f32) (w : Vec F Col .f32) : Vec F Mat .f32 :=
  fun i => FloatOps.mulf (x i) (w (weightAt i))

theorem scaled_apply (x : Vec F Mat .f32) (w : Vec F Col .f32) (i : Mat.Idx) :
    scaled x w i = FloatOps.mulf (x i) (w (weightAt i)) := rfl

/-- One entry, from any two arrays that hold the matrix and the weights as a row of lanes: if the row's lane `k` is the weight
    of row `k`, the matrix is read at the entry itself, and the lane read is the entry's column, the product is the scaled
    matrix's entry. -/
theorem entry_eq {R : Shape} (x : Vec F Mat .f32) (row : Vec F R .f32) (w : Vec F Col .f32) (lane : R.Idx → Fin 512)
    (hrow : ∀ k : R.Idx, row k = w (ix2 (n0 := 512) (n1 := 1) (lane k) 0))
    (i i' : Mat.Idx) (k : R.Idx) (hi : i' = i) (hk : (lane k).val = (i 1).val) :
    FloatOps.mulf (x i') (row k) = scaled x w i := by
  subst hi
  rw [hrow k, scaled_apply]
  have e : (ix2 (n0 := 512) (n1 := 1) (lane k) 0 : Col.Idx) = weightAt i' := by
    funext a
    match a with
    | ⟨0, _⟩ => exact Fin.ext hk
    | ⟨1, _⟩ => rfl
  rw [e]

end Cert.ColumnScale

end
-- ==== Proof.ReferenceScale.lean ====
/-
  The reference computes the scaled matrix. Its four host operations carry the weight column to a vector of 512 entries
  (entry `q` is `w (q, 0)`), lay that vector out as a single row of 512 lanes, repeat the row down all 200000 rows, and
  multiply the matrix by the result entry by entry. Reading the last stage at an entry `(p, q)` and following the three
  layout steps back — the repeated row at `(p, q)` is the row at `(0, q)`, the row at `(0, q)` is the vector at `q`, the
  vector at `q` is the column at `(q, 0)` — gives `x (p, q) · w (q, 0)`.
-/
import proofs.«157508_j35871566856221_2_alg».proof.Proof.Gen.ReferenceIdeal.Read
import proofs.«157508_j35871566856221_2_alg».proof.Proof.ColumnScale

noncomputable section

namespace Cert.ReferenceIdeal.Scale

open Cert.ReferenceIdeal Cert.ReferenceIdeal.Gen Cert.ReferenceIdeal.Read Idealize.ShloMosaic Idealize.ShloMosaic.ValueIdx
open Cert.ColumnScale (scaled weightAt)

variable {F : FTy → Type} [FloatOps F]

/-- The three layout steps composed: the entry `(p, q)` of the repeated row comes from row `q` of the weight column. -/
theorem source_eq (i : S200000x512.Idx) : idx_main_v0 (idx_main_v1 (idx_main_v2 i)) = weightAt i := by
  funext a
  apply Fin.ext
  match a with
  | ⟨0, _⟩ => show (i 1).val / 1 = (i 1).val; exact Nat.div_one _
  | ⟨1, _⟩ => rfl

/-- The reference's last stage is the scaled matrix. -/
theorem stage_eq (x : (⟨S200000x512, .f32⟩ : BufTy).Contents (Elt F)) (w : (⟨S512x1, .f32⟩ : BufTy).Contents (Elt F)) :
    val_main_v3 (F := F) x w = scaled x w := by
  funext i
  rw [val_main_v3_apply, val_main_v2_apply, val_main_v1_apply, val_main_v0_apply, source_eq i]
  rfl

end Cert.ReferenceIdeal.Scale

end
-- ==== Proof.WeightRow.lean ====
/-
  What the kernel's second window stages. Before the region is entered two host operations re-lay the weight column: the
  column of 512 rows becomes a vector of 512 entries, and the vector becomes one row of 512 lanes. The region therefore
  finds, in the array its second window reads, the row whose lane `q` is the weight `w (q, 0)`. The matrix itself is
  handed to the first window untouched.
-/
import proofs.«157508_j35871566856221_2_alg».proof.Proof.Gen.KernelIdeal.Frame
import proofs.«157508_j35871566856221_2_alg».proof.Proof.ColumnScale
import Idealize.ShloMosaic.Lib.Pipeline.Value
import Idealize.ShloMosaic.Lib.StableHlo.Run

noncomputable section

namespace Cert.KernelIdeal.Scale

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The lane of a row index: its second coordinate. -/
abbrev lane (k : S1x512.Idx) : Fin 512 := ⟨(k 1).val, (k 1).isLt⟩

/-- The row the region finds is the weight column cast to a vector and set as a row. -/
theorem row_eq (c : Dev nD) :
    (V m c main_v1 : S1x512.Idx → Elt F .f32)
      = broadcastInDim S1x512 ![1] bcast_S512_S1x512_1 (shapeCast S512 (m ((c : Thread nD τ).loc main_arg1)) shapeCasts_S512x1_S512) := by
  dsimp only [Gen.V, Gen.hostOps0]
  after_results
  rfl

/-- A column of 512 rows cast to a vector and set as a row, read at lane `q`, is the column at row `q`. -/
theorem row_of_column_apply (w : S512x1.Idx → Elt F .f32) (k : S1x512.Idx) :
    broadcastInDim S1x512 ![1] bcast_S512_S1x512_1 (shapeCast S512 w shapeCasts_S512x1_S512) k
      = w (ix2 (n0 := 512) (n1 := 1) (lane k) 0) := by
  refine (broadcastInDim_apply _ bcast_S512_S1x512_1 _ k (ix1 (lane k)) (fun a => match a with
    | ⟨0, _⟩ => by show (k 1).val = if (512 : Nat) = 1 then 0 else (k 1).val; rw [if_neg (by decide)])).trans ?_
  exact shapeCast_apply w shapeCasts_S512x1_S512 (ix1 (lane k)) (ix2 (n0 := 512) (n1 := 1) (lane k) 0)
    (by rewrite [Shape.rowMajor_val_two, Shape.rowMajor_val_one]; show (k 1).val * 1 + 0 = (k 1).val; omega)

/-- Lane `q` of the row the second window stages is the weight of row `q`. -/
theorem row_apply (c : Dev nD) (k : S1x512.Idx) :
    (V m c main_v1 : S1x512.Idx → Elt F .f32) k
      = m ((c : Thread nD τ).loc main_arg1) (ix2 (n0 := 512) (n1 := 1) (lane k) 0) := by
  rw [row_eq m c]
  exact row_of_column_apply _ k

end Cert.KernelIdeal.Scale

end
-- ==== Proof.KernelScale.lean ====
/-
  The kernel computes the scaled matrix. Its grid has 50 points; point `t` takes rows 4000·t … 4000·t + 3999 of the matrix
  (all 512 columns) as its block, takes the whole row of 512 weight lanes, and writes back, to the same rows of the result,
  the block with lane `q` of every row multiplied by the row's lane `q`. Entry `(r, q)` of the block at point `t` is entry
  `(4000·t + r, q)` of the array, and the weight row's lane `q` is `w (q, 0)`, so what point `t` writes back is the block of
  the scaled matrix on its rows. The 50 blocks are disjoint and together they are all 200000 rows — row `p` lies in the
  block of point `p / 4000` — so after the last point the result array is the scaled matrix everywhere.
-/
import proofs.«157508_j35871566856221_2_alg».proof.Proof.Gen.KernelIdeal.Value
import proofs.«157508_j35871566856221_2_alg».proof.Proof.WeightRow
import proofs.«157508_j35871566856221_2_alg».proof.Proof.ColumnScale
import Idealize.ShloMosaic.Lib.Pipeline.Value

noncomputable section

namespace Cert.KernelIdeal.Scale

open Cert.KernelIdeal Cert.KernelIdeal.Gen Idealize.ShloMosaic Idealize.ShloMosaic.TcCoe Idealize.SL.Sem
open Idealize.ShloMosaic.Pipeline (Dat)
open Cert.ColumnScale (scaled)

variable {F : FTy → Type} [FloatOps F]
variable (m : (ℓ : Loc nD τ sig) → Buf (Elt F) ℓ) (ρ : Dev nD → PrngReg)

/-- The body's loads and its store start at the origin of their buffers. -/
theorem origin : (![0, 0] : Fin 2 → Nat) = fun _ => 0 := funext fun a => by fin_cases a <;> rfl

/-- The block indices over the 50 grid points: the matrix's block and the result's block are on the same rows, every
    block starts at column 0, and the weight row's block is always the whole row. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 50 row bands is some point's block. -/
theorem band_reached : ∀ q : Fin 50, ∃ t : Fin cfg0.N, win0_2.index t = ![q.val, 0] :=
  (by decide +kernel : ∀ q : Fin 50, ∃ t : Fin grid0.N, win0_2.index t = ![q.val, 0])

/-- What point `t` writes back is the scaled matrix on the point's rows. -/
theorem flushed_eq (c : Dev nD) (t : Fin cfg0.N) :
    (dats m 0 c).flushed 2 t = ((cfg0.win 2).blk t).view.read (Elt F)
      (scaled (m ((c : Thread nD τ).loc main_arg0)) (m ((c : Thread nD τ).loc main_arg1))) := by
  rw [Value.flushed2]
  unfold out0_2
  simp only [View.ld_unit_zero (S := S4000x512) origin, View.ld_unit_zero (S := S1x512) origin]
  obtain ⟨e0, e1, e2, e3, e4⟩ := block_indices t
  funext j
  refine (Value.canon2_eq _ _ j).trans ?_
  show FloatOps.mulf (V m c main_arg0 (((cfg0.win 0).blk t).view.emb (Value.ix2_0 j)))
      ((V m c main_v1 : S1x512.Idx → Elt F .f32) (((cfg0.win 1).blk t).view.emb (Value.ix2_1 j)))
    = scaled (m ((c : Thread nD τ).loc main_arg0)) (m ((c : Thread nD τ).loc main_arg1)) (((cfg0.win 2).blk t).view.emb j)
  rw [V_main_arg0]
  refine Cert.ColumnScale.entry_eq _ _ _ lane (row_apply m c) _ _ _ ?_ ?_
  · funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * (j 1).val = win0_2.index t (1 : Fin 2) * 512 + 1 * (j 1).val; omega
  · show win0_1.index t (1 : Fin 2) * 512 + 1 * (j 1).val = win0_2.index t (1 : Fin 2) * 512 + 1 * (j 1).val; omega

/-- An entry of the result lies in point `t`'s block iff each coordinate is in the block's range on its axis. -/
theorem mem_block (t : Fin cfg0.N) (i : S200000x512.Idx) :
    i ∈ ((cfg0.win 2).blk t).view.set ↔ ∀ a : Fin 2, win0_2.index t a * S4000x512.size a ≤ (i a).val ∧ (i a).val < win0_2.index t a * S4000x512.size a + S4000x512.size a := by
  show i ∈ ((View.whole main_v2).slice (win0_2.rect t)).set ↔ _
  rw [View.set_slice_whole, Rect.mem_set_unit]
  exact Iff.rfl

/-- Every entry of the result is written back by some point: row `p` by point `p / 4000`. -/
theorem covered (i : S200000x512.Idx) :
    ∃ t : Fin cfg0.N, (cfg0.win 2).flush t = true ∧ i ∈ ((cfg0.win 2).blk t).view.set := by
  have hi0 : (i 0).val < 200000 := (i 0).isLt
  have hi1 : (i 1).val < 512 := (i 1).isLt
  obtain ⟨t, ht⟩ := band_reached ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 512 ≤ (i 1).val ∧ (i 1).val < win0_2.index t (1 : Fin 2) * 512 + 512; omega

/-- After the last point the result array is the scaled matrix. -/
theorem final (c : Dev nD) :
    (dats m 0 c).arrAt 2 cfg0.N = scaled (m ((c : Thread nD τ).loc main_arg0)) (m ((c : Thread nD τ).loc main_arg1)) :=
  (dats m 0 c).arrAt_eq_of_cover 2 _ (fun t _ => flushed_eq m c t) covered

/-- The kernel's run: it ends with the result array at the scaled matrix and the arguments unchanged. -/
theorem run : θ_run defs (onTc (τ := τ) (main (F := F))) ⟨m, fun _ => 0, ρ⟩ fun r => ∀ c : Dev nD,
      r.2.mem ((c : Thread nD τ).loc main_v2) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scale

end
-- ==== Proof.lean ====
/-
  The kernel multiplies every column of a matrix `x` (200000 rows, 512 columns) by the matching entry of a weight column
  `w` (512 rows, one column): result (p, q) = x (p, q) · w (q, 0). The reference states the same product directly. Over the
  extended reals both programs are this one function of their arguments (Proof/ColumnScale.lean): the kernel because each
  of its 50 grid points writes back the scaled matrix on its own band of 4000 rows and the bands fill the array
  (Proof/KernelScale.lean, with the weight row the region is handed read in Proof/WeightRow.lean), the reference because
  its three layout steps carry `w (q, 0)` to every entry of column `q` before the one product (Proof/ReferenceScale.lean).
  No law of arithmetic is used, so the finiteness of the inputs is never opened. The three programs terminate without
  a fault and leave their arguments as they were; the idealized kernel is the kernel's own text, nothing rewritten.
-/
import proofs.«157508_j35871566856221_2_alg».proof.Defs
import proofs.«157508_j35871566856221_2_alg».proof.Proof.Gen.Kernel
import proofs.«157508_j35871566856221_2_alg».proof.Proof.Gen.Kernel.Frame
import proofs.«157508_j35871566856221_2_alg».proof.Proof.Gen.KernelIdeal
import proofs.«157508_j35871566856221_2_alg».proof.Proof.Gen.KernelIdeal.Frame
import proofs.«157508_j35871566856221_2_alg».proof.Proof.Gen.KernelIdeal.Value
import proofs.«157508_j35871566856221_2_alg».proof.Proof.Gen.ReferenceIdeal
import proofs.«157508_j35871566856221_2_alg».proof.Proof.Gen.ReferenceIdeal.Run
import proofs.«157508_j35871566856221_2_alg».proof.Proof.Gen.ReferenceIdeal.Read
import proofs.«157508_j35871566856221_2_alg».proof.Proof.Gen.Pre_finite_inputs
import proofs.«157508_j35871566856221_2_alg».proof.Proof.ColumnScale
import proofs.«157508_j35871566856221_2_alg».proof.Proof.ReferenceScale
import proofs.«157508_j35871566856221_2_alg».proof.Proof.KernelScale
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on `x` and `w` both programs end with the scaled matrix `(p, q) ↦ x (p, q) · w (q, 0)`. -/
theorem algebraic : Cert.algebraic_KernelIdeal_ReferenceIdeal := by
  intro m ρ m' ρ' _ hagree
  refine ⟨fun c => Cert.ColumnScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Scale.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
